-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩

abbrev nBuf : Space → Nat
  | .hbm => 40
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S1x64, .f32⟩
  | .hbm, ⟨39, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x64, .f32⟩
  | .hbm, ⟨40, _⟩ => ⟨S_, .f32⟩
  | .hbm, ⟨41, _⟩ => ⟨S100000x64, .f32⟩
  | .hbm, ⟨42, _⟩ => ⟨S1000000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  One layer of the message-passing network as ONE function of whole arrays, entry by entry.

  A layer takes the aggregated messages `a` and the node features `x` (both 100000 × 64), a weight matrix `W` (64 × 64)
  and a bias written as a 1 × 64 row `b`. Entry (r, q) of its output is

      max ( Σ_{k < 64} (a[r,k] + x[r,k]) · W[k,q]  +  b[0,q] ,  0 )

  on the extended reals: the self-loop term added to the messages, one row of that sum against one column of the weights,
  the bias, and the rectifier. Each entry depends on row r of `a` and `x` only, which is why a row-blocked kernel and a
  whole-array matrix product compute the same array.
-/
import Idealize.ShloMosaic.PureOps.Ideal
import Idealize.ShloMosaic.Lib.ValueIdx

noncomputable section

namespace Cert.GraphConv

open Idealize.ShloMosaic Idealize.ShloMosaic.ValueIdx

/-- Node features and aggregated messages: one row of 64 numbers per node. -/
abbrev Nodes : Shape := ⟨2, ![100000, 64]⟩
/-- A layer's weights. -/
abbrev Weights : Shape := ⟨2, ![64, 64]⟩
/-- A layer's bias as a single row. -/
abbrev BiasRow : Shape := ⟨2, ![1, 64]⟩

/-- Entry (r, q) of a layer's output: row r of `a + x` against column q of `W`, plus the bias at q, rectified. The
    rectifier's zero is kept as the f32 word both programs write; it is never evaluated. -/
def entry (a x : FVec Ideal Nodes .f32) (W : FVec Ideal Weights .f32) (b : FVec Ideal BiasRow .f32)
    (r : Fin 100000) (q : Fin 64) : Ideal .f32 :=
  max (∑ k : Fin 64, (a (ix2 r k) + x (ix2 r k)) * W (ix2 k q) + b (ix2 (0 : Fin 1) q)) (Ideal.ofBits .f32 0x00000000#32)

/-- The layer's output array. -/
def layer (a x : FVec Ideal Nodes .f32) (W : FVec Ideal Weights .f32) (b : FVec Ideal BiasRow .f32) :
    FVec Ideal Nodes .f32 :=
  fun i => entry a x W b (i 0) (i 1)

theorem layer_apply (a x : FVec Ideal Nodes .f32) (W : FVec Ideal Weights .f32) (b : FVec Ideal BiasRow .f32)
    (r : Fin 100000) (q : Fin 64) : layer a x W b (ix2 r q) = entry a x W b r q := rfl

end Cert.GraphConv

end
-- ==== Proof.RefLayers.lean ====
/-
  The reference computes two layers, one after the other.

  The reference aggregates the messages of the node features (a gather of the source rows and a sum into the destination
  rows, carried here as ONE function `aggregate` of the features and the edge list and never opened), applies a layer to
  them, aggregates the messages of that layer's output over the same edges and applies the second layer. Read entry by
  entry, its whole-array matrix product is the sum over the 64 shared coordinates, its bias broadcast reads the bias row,
  and its rectifier is the maximum with the zero word: each of its two stages is `layer`.
-/
import proofs.«124317_j52012053955020_1_alg».proof.Proof.Gen.ReferenceIdeal.Read
import proofs.«124317_j52012053955020_1_alg».proof.Proof.Layer

noncomputable section

namespace Cert.ReferenceIdeal.RefValue

open Cert.ReferenceIdeal Cert.ReferenceIdeal.Read Cert.GraphConv Idealize.ShloMosaic Idealize.ShloMosaic.ValueIdx

/-- The messages a node receives: for every edge the source node's row of `x` is added into the destination node's row,
    starting from zero. The edge list is the 2 × 1000000 integer array; which rows it names is never looked at. -/
def aggregate (x : FVec Ideal S100000x64 .f32) (e : (⟨S2x1000000, .i32⟩ : BufTy).Contents (Elt Ideal)) :
    FVec Ideal S100000x64 .f32 :=
  val_main_v13 (F := Ideal) x e

/-- A bias vector written as a 1 × 64 row. -/
def biasRow (b : FVec Ideal S64 .f32) : FVec Ideal S1x64 .f32 := val_main_v16 (F := Ideal) b

/-- The network: a layer on the aggregated messages of `x`, then a layer on the aggregated messages of its output. -/
def twoLayers (x : FVec Ideal S100000x64 .f32) (e : (⟨S2x1000000, .i32⟩ : BufTy).Contents (Elt Ideal))
    (W1 : FVec Ideal S64x64 .f32) (b1 : FVec Ideal S64 .f32) (W2 : FVec Ideal S64x64 .f32) (b2 : FVec Ideal S64 .f32) :
    FVec Ideal S100000x64 .f32 :=
  layer (aggregate (layer (aggregate x e) x W1 (biasRow b1)) e) (layer (aggregate x e) x W1 (biasRow b1)) W2 (biasRow b2)

/-- The reference's first rectified stage is a layer on the aggregated messages of the features. -/
theorem layer1_eq (x0 : FVec Ideal S100000x64 .f32) (x1 : (⟨S2x1000000, .i32⟩ : BufTy).Contents (Elt Ideal))
    (x2 : FVec Ideal S64x64 .f32) (x3 : FVec Ideal S64 .f32) :
    val_main_v19 (F := Ideal) x0 x1 x2 x3 = layer (aggregate x0 x1) x0 x2 (biasRow x3) := by
  unfold aggregate biasRow
  funext i
  obtain ⟨r, q, rfl⟩ : ∃ (r : Fin 100000) (q : Fin 64), i = ix2 r q := ⟨i 0, i 1, eq_ix2 i⟩
  rw [layer_apply, val_main_v19_apply, val_main_v18_apply, val_main_v15_apply, val_main_v17_apply,
    val_main_call0_v0_apply, val_main_call0_cst_apply]
  -- the product's operand indices at (r, q) and k are (r, k) and (k, q); the bias is read at (0, q)
  have el : ∀ k : Fin 64, lidx_main_v15 (ix2 r q) k = ix2 r k := fun k => funext fun a => by
    match a with | ⟨0, _⟩ => rfl | ⟨1, _⟩ => rfl
  have er : ∀ k : Fin 64, ridx_main_v15 (ix2 r q) k = ix2 k q := fun k => funext fun a => by
    match a with | ⟨0, _⟩ => rfl | ⟨1, _⟩ => rfl
  have eb : idx_main_v17 (ix2 r q) = ix2 (0 : Fin 1) q := funext fun a => by
    match a with | ⟨0, _⟩ => rfl | ⟨1, _⟩ => rfl
  simp only [el, er, eb]
  -- the messages plus the features, read at (r, k); from here every array is an arbitrary one: nothing below looks
  -- inside the aggregation
  have e14 : ∀ k : Fin 64, val_main_v14 (F := Ideal) x0 x1 (ix2 r k)
      = FloatOps.addf (val_main_v13 (F := Ideal) x0 x1 (ix2 r k)) (x0 (ix2 r k)) :=
    fun k => val_main_v14_apply (F := Ideal) x0 x1 (ix2 r k)
  generalize val_main_v13 (F := Ideal) x0 x1 = A at e14 ⊢
  generalize val_main_v14 (F := Ideal) x0 x1 = C at e14 ⊢
  generalize val_main_v16 (F := Ideal) x3 = B
  unfold entry
  simp only [e14]
  rfl

/-- The second aggregation is the first one's function, applied to the first layer's output over the same edges. -/
theorem aggregate2_eq (x0 : FVec Ideal S100000x64 .f32) (x1 : (⟨S2x1000000, .i32⟩ : BufTy).Contents (Elt Ideal))
    (x2 : FVec Ideal S64x64 .f32) (x3 : FVec Ideal S64 .f32) :
    val_main_v29 (F := Ideal) x0 x1 x2 x3 = aggregate (val_main_v19 (F := Ideal) x0 x1 x2 x3) x1 := rfl

/-- The reference's result is a layer on the second aggregation and the first layer's output. -/
theorem layer2_eq (x0 : FVec Ideal S100000x64 .f32) (x1 : (⟨S2x1000000, .i32⟩ : BufTy).Contents (Elt Ideal))
    (x2 : FVec Ideal S64x64 .f32) (x3 : FVec Ideal S64 .f32) (x4 : FVec Ideal S64x64 .f32) (x5 : FVec Ideal S64 .f32) :
    val_main_v35 (F := Ideal) x0 x1 x2 x3 x4 x5
      = layer (val_main_v29 (F := Ideal) x0 x1 x2 x3) (val_main_v19 (F := Ideal) x0 x1 x2 x3) x4 (biasRow x5) := by
  unfold biasRow
  funext i
  obtain ⟨r, q, rfl⟩ : ∃ (r : Fin 100000) (q : Fin 64), i = ix2 r q := ⟨i 0, i 1, eq_ix2 i⟩
  rw [layer_apply, val_main_v35_apply, val_main_v34_apply, val_main_v31_apply, val_main_v33_apply,
    val_main_call1_v0_apply, val_main_call1_cst_apply]
  have el : ∀ k : Fin 64, lidx_main_v31 (ix2 r q) k = ix2 r k := fun k => funext fun a => by
    match a with | ⟨0, _⟩ => rfl | ⟨1, _⟩ => rfl
  have er : ∀ k : Fin 64, ridx_main_v31 (ix2 r q) k = ix2 k q := fun k => funext fun a => by
    match a with | ⟨0, _⟩ => rfl | ⟨1, _⟩ => rfl
  have eb : idx_main_v33 (ix2 r q) = ix2 (0 : Fin 1) q := funext fun a => by
    match a with | ⟨0, _⟩ => rfl | ⟨1, _⟩ => rfl
  simp only [el, er, eb]
  -- the second bias row is written by the same broadcast as the first
  have e32 : val_main_v32 (F := Ideal) x5 = val_main_v16 (F := Ideal) x5 := rfl
  rw [e32]
  -- the second messages plus the first layer's output, read at (r, k); every array is an arbitrary one from here
  have e30 : ∀ k : Fin 64, val_main_v30 (F := Ideal) x0 x1 x2 x3 (ix2 r k)
      = FloatOps.addf (F := Ideal) (φ := .f32) (val_main_v29 (F := Ideal) x0 x1 x2 x3 (ix2 r k))
          (val_main_v19 (F := Ideal) x0 x1 x2 x3 (ix2 r k)) :=
    fun k => val_main_v30_apply (F := Ideal) x0 x1 x2 x3 (ix2 r k)
  generalize val_main_v29 (F := Ideal) x0 x1 x2 x3 = A at e30 ⊢
  generalize val_main_v19 (F := Ideal) x0 x1 x2 x3 = H at e30 ⊢
  generalize val_main_v30 (F := Ideal) x0 x1 x2 x3 = C at e30 ⊢
  generalize val_main_v16 (F := Ideal) x5 = B
  unfold entry
  simp only [e30]
  rfl

/-- The reference's result array is the two-layer network of its arguments. -/
theorem result_eq (x0 : FVec Ideal S100000x64 .f32) (x1 : (⟨S2x1000000, .i32⟩ : BufTy).Contents (Elt Ideal))
    (x2 : FVec Ideal S64x64 .f32) (x3 : FVec Ideal S64 .f32) (x4 : FVec Ideal S64x64 .f32) (x5 : FVec Ideal S64 .f32) :
    val_main_v35 (F := Ideal) x0 x1 x2 x3 x4 x5 = twoLayers x0 x1 x2 x3 x4 x5 := by
  rw [layer2_eq, aggregate2_eq, layer1_eq]
  rfl

end Cert.ReferenceIdeal.RefValue

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.Payload.lean ====
/-
  The arithmetic of one grid point, read at one entry.

  At a grid point the body holds a 5000-row block of the aggregated messages (`x0`) and of the node features (`x1`), the
  whole 64 × 64 weights (`x2`) and the bias row (`x3`). It adds the two blocks, multiplies by the weights into a zero
  accumulator, adds the bias row to every row and rectifies. On the extended reals the narrowing to bf16 before the
  product is the identity and the product into a zero accumulator is the plain sum over the 64 shared coordinates, so entry
  (p, q) of what the body stores is  max ( Σ_k (x0[p,k] + x1[p,k]) · x2[k,q] + x3[0,q] , 0 ).
  The second layer's body differs only by an identity reshape of its second block.
-/
import proofs.«124317_j52012053955020_1_alg».proof.Proof.Gen.KernelIdeal.Skeleton
import proofs.«124317_j52012053955020_1_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The product's left operand is read at the result's row: coordinate 0 of its index is the result's coordinate 0. -/
private theorem dot_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Coordinate 1 of the left operand's index is the shared coordinate. -/
private theorem dot_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- Coordinate 0 of the right operand's index is the shared coordinate. -/
private theorem dot_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The product's right operand is read at the result's column: coordinate 1 of its index is the result's coordinate 1. -/
private theorem dot_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of what the first layer's body stores at a grid point. -/
theorem k0_pay1_apply (x0 x1 : Vec Ideal S5000x64 .f32) (x2 : Vec Ideal S64x64 .f32) (x3 : Vec Ideal S1x64 .f32)
    (p : Fin 5000) (q : Fin 64) :
    k0_pay1 (F := Ideal) x0 x1 x2 x3 (ix2 p q)
      = max (∑ k : Fin 64, (x0 (ix2 p k) + x1 (ix2 p k)) * x2 (ix2 k q) + x3 (ix2 (0 : Fin 1) q))
          (Ideal.ofBits .f32 0x00000000#32) := by
  unfold k0_pay1
  rw [shapeCast_self x0, shapeCast_self x3]
  -- entrywise: max ( product entry + bias entry , 0 ); the two summands separately
  refine congrArg₂ max (congrArg₂ (· + ·) ?_ ?_) rfl
  · -- the product into the zero accumulator is the sum over the shared index, re-indexed by k : Fin 64
    refine (Ideal.matmul_constant_zero_apply dot_S5000x64_S64x64_S5000x64_1_0_0_1_n_n none
      (truncf .bf16 (addf x0 x1) bitsLt_bf16_f32) (truncf .bf16 x2 bitsLt_bf16_f32) (ix2 p q)).trans ?_
    exact Cert.LibDotSum.plain dot_S5000x64_S64x64_S5000x64_1_0_0_1_n_n rfl rfl dot_lhs0 dot_lhs1 dot_rhs0 dot_rhs1
      (fun a b => (x0 a + x1 a) * x2 b) (ix2 p q)
  · -- the bias row broadcast over the rows reads its one row at the column
    exact broadcastTo_1b_ab_apply x3 broadcasts_S1x64_S5000x64 p q

/-- Entry (p, q) of what the second layer's body stores at a grid point. -/
theorem k1_pay1_apply (x0 x1 : Vec Ideal S5000x64 .f32) (x2 : Vec Ideal S64x64 .f32) (x3 : Vec Ideal S1x64 .f32)
    (p : Fin 5000) (q : Fin 64) :
    k1_pay1 (F := Ideal) x0 x1 x2 x3 (ix2 p q)
      = max (∑ k : Fin 64, (x0 (ix2 p k) + x1 (ix2 p k)) * x2 (ix2 k q) + x3 (ix2 (0 : Fin 1) q))
          (Ideal.ofBits .f32 0x00000000#32) := by
  unfold k1_pay1
  rw [shapeCast_self x0, shapeCast_self x1, shapeCast_self x3]
  -- entrywise: max ( product entry + bias entry , 0 ); the two summands separately
  refine congrArg₂ max (congrArg₂ (· + ·) ?_ ?_) rfl
  · -- the product into the zero accumulator is the sum over the shared index, re-indexed by k : Fin 64
    refine (Ideal.matmul_constant_zero_apply dot_S5000x64_S64x64_S5000x64_1_0_0_1_n_n none
      (truncf .bf16 (addf x0 x1) bitsLt_bf16_f32) (truncf .bf16 x2 bitsLt_bf16_f32) (ix2 p q)).trans ?_
    exact Cert.LibDotSum.plain dot_S5000x64_S64x64_S5000x64_1_0_0_1_n_n rfl rfl dot_lhs0 dot_lhs1 dot_rhs0 dot_rhs1
      (fun a b => (x0 a + x1 a) * x2 b) (ix2 p q)
  · -- the bias row broadcast over the rows reads its one row at the column
    exact broadcastTo_1b_ab_apply x3 broadcasts_S1x64_S5000x64 p q

end Cert.KernelIdeal.BlockValue

end
-- ==== Proof.Region0.lean ====
/-
  The first launch's result array is ONE layer of the arrays it finds.

  The launch runs over 20 grid points. Point t holds rows 5000·t … 5000·t + 4999 of the aggregated messages and of the
  features, the whole weights and the whole bias row, and writes back rows 5000·t … 5000·t + 4999 of the result. An entry
  of a layer depends on its own row of the two row-blocked operands only, so what point t writes back is block t of the
  layer of the whole arrays; the 20 blocks tile the 100000 rows (row r lies in block r / 5000), so the result array ends
  holding the layer.
-/
import proofs.«124317_j52012053955020_1_alg».proof.Proof.Gen.KernelIdeal.Frame
import proofs.«124317_j52012053955020_1_alg».proof.Proof.Payload
import proofs.«124317_j52012053955020_1_alg».proof.Proof.Layer
import Idealize.ShloMosaic.Lib.Pipeline.Value

set_option maxRecDepth 16384

noncomputable section

namespace Cert.KernelIdeal.Region0

open Cert.KernelIdeal Cert.KernelIdeal.Gen Cert.KernelIdeal.BlockValue Cert.GraphConv
open Idealize.ShloMosaic Idealize.ShloMosaic.ValueIdx Idealize.ShloMosaic.TcCoe Idealize.SL.Sem
open Idealize.ShloMosaic.Pipeline (Dat)

/-- The body's rectangles start at the origin. -/
theorem origin : (![0, 0] : Fin 2 → Nat) = fun _ => 0 := funext fun a => by fin_cases a <;> rfl

/-- The index maps over the grid: the two row-blocked inputs and the output are at block (t, 0), the weights and the
    bias row at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- ONE POINT, over plain arrays: if the four loaded blocks are block `n` of `a` and of `x`, the whole `W` and the whole
    row `b`, then entry (p, q) of what the body stores is entry (5000·n + p, q) of the layer of `a`, `x`, `W`, `b`. -/
theorem point_eq (a x : FVec Ideal Nodes .f32) (W : FVec Ideal Weights .f32) (b : FVec Ideal BiasRow .f32)
    (x0 x1 : Vec Ideal S5000x64 .f32) (x2 : Vec Ideal S64x64 .f32) (x3 : Vec Ideal S1x64 .f32) (n : Nat) (hn : n < 20)
    (h0 : ∀ (p : Fin 5000) (k : Fin 64), x0 (ix2 p k) = a (ix2 (⟨n * 5000 + p.val, by omega⟩ : Fin 100000) k))
    (h1 : ∀ (p : Fin 5000) (k : Fin 64), x1 (ix2 p k) = x (ix2 (⟨n * 5000 + p.val, by omega⟩ : Fin 100000) k))
    (h2 : ∀ (k q : Fin 64), x2 (ix2 k q) = W (ix2 k q))
    (h3 : ∀ (q : Fin 64), x3 (ix2 (0 : Fin 1) q) = b (ix2 (0 : Fin 1) q))
    (p : Fin 5000) (q : Fin 64) :
    k0_pay1 (F := Ideal) x0 x1 x2 x3 (ix2 p q) = layer a x W b (ix2 (⟨n * 5000 + p.val, by omega⟩ : Fin 100000) q) := by
  rw [k0_pay1_apply, layer_apply]
  unfold entry
  simp only [h0, h1, h2, h3]

variable (V : (c : Dev nD) → (b : Ref sig .tc) → Buf (Elt Ideal) ((c : Thread nD τ).loc b)) (c : Dev nD)

/-- WHAT POINT `t` WRITES BACK is block `t` of the layer of the arrays the launch finds. -/
theorem flushed_eq (t : Fin cfg0.N) :
    (dat0 V c).flushed 4 t
      = ((cfg0.win 4).blk t).view.read (Elt Ideal) (layer (V c main_v13) (V c main_arg0) (V c main_arg2) (V c main_v14)) := by
  show (cfg0.win 4).cut (grid0.coords t) ((dat0 V c).after 4 t) = _
  rw [after0_4]
  unfold out0_4
  rw [View.canon_unit_zero origin]
  simp only [View.ld_unit_zero (S := S5000x64) origin, View.ld_unit_zero (S := S64x64) origin,
    View.ld_unit_zero (S := S1x64) origin]
  obtain ⟨e00, e01, e10, e11, e20, e21, e30, e31, e40, e41⟩ := block_index t
  have ht : t.val < 20 := lt_of_lt_of_eq t.isLt (N_0 : cfg0.N = 20)
  refine funext fun (j : S5000x64.Idx) => ?_
  obtain ⟨p, q, rfl⟩ : ∃ (p : Fin 5000) (q : Fin 64), j = ix2 p q := ⟨j 0, j 1, eq_ix2 j⟩
  refine (point_eq (V c main_v13) (V c main_arg0) (V c main_arg2) (V c main_v14)
    (iblk0 V c 0 t) (iblk0 V c 1 t) (iblk0 V c 2 t) (iblk0 V c 3 t) t.val ht ?_ ?_ ?_ ?_ p q).trans ?_
  · -- the messages' block: rows 5000·t + p
    intro p k
    show V c main_v13 (((cfg0.win 0).blk t).view.emb (ix2 p k)) = _
    refine congrArg (V c main_v13) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · -- the features' block: the same rows
    intro p k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  · -- the weights: the whole array
    intro k q
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; rw [e20]; omega
    | ⟨1, _⟩ => show win0_2.index t (1 : Fin 2) * 64 + 1 * q.val = q.val; rw [e21]; omega
  · -- the bias row: the whole row
    intro q
    show V c main_v14 (((cfg0.win 3).blk t).view.emb (ix2 (0 : Fin 1) q)) = _
    refine congrArg (V c main_v14) (funext fun a => Fin.ext ?_)
    match a with
    | ⟨0, _⟩ => show win0_3.index t (0 : Fin 2) * 1 + 1 * (0 : Fin 1).val = (0 : Fin 1).val; rw [e30]; simp
    | ⟨1, _⟩ => show win0_3.index t (1 : Fin 2) * 64 + 1 * q.val = q.val; rw [e31]; omega
  · -- the output block sits at the same rows
    show _ = layer (V c main_v13) (V c main_arg0) (V c main_arg2) (V c main_v14) (((cfg0.win 4).blk t).view.emb (ix2 p q))
    refine congrArg (layer (V c main_v13) (V c main_arg0) (V c main_arg2) (V c main_v14)) (funext fun a => Fin.ext ?_)
    match a with
    | ⟨0, _⟩ => show t.val * 5000 + p.val = win0_4.index t (0 : Fin 2) * 5000 + 1 * p.val; rw [e40]; omega
    | ⟨1, _⟩ => show q.val = win0_4.index t (1 : Fin 2) * 64 + 1 * q.val; rw [e41]; omega

/-- An index of the result array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v15).slice (win0_4.rect t)).set ↔ _
  rw [View.set_slice_whole, Rect.mem_set_unit]
  exact Iff.rfl

/-- Every entry of the result array is written back by some point: row r by point r / 5000. -/
theorem cover (i : S100000x64.Idx) :
    ∃ t : Fin cfg0.N, (cfg0.win 4).flush t = true ∧ i ∈ ((cfg0.win 4).blk t).view.set := by
  have hi0 : (i 0).val < 100000 := idx2_lt0 i
  have hi1 : (i 1).val < 64 := idx2_lt1 i
  have hN : cfg0.N = 20 := N_0
  refine ⟨⟨(i 0).val / 5000, by rw [hN]; omega⟩, flush0_4 _, ?_⟩
  rw [mem_blk]
  obtain ⟨-, -, -, -, -, -, -, -, e40, e41⟩ := block_index ⟨(i 0).val / 5000, by rw [hN]; omega⟩
  intro a
  match a with
  | ⟨0, _⟩ =>
    show win0_4.index ⟨(i 0).val / 5000, _⟩ (0 : Fin 2) * 5000 ≤ (i 0).val
      ∧ (i 0).val < win0_4.index ⟨(i 0).val / 5000, _⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, _⟩ (1 : Fin 2) * 64 ≤ (i 1).val
      ∧ (i 1).val < win0_4.index ⟨(i 0).val / 5000, _⟩ (1 : Fin 2) * 64 + 64
    rw [e41]; omega

/-- THE RESULT ARRAY after the launch is the layer of the arrays the launch finds. -/
theorem final :
    (dat0 V c).arrAt 4 cfg0.N = layer (V c main_v13) (V c main_arg0) (V c main_arg2) (V c main_v14) :=
  (dat0 V c).arrAt_eq_of_cover 4 _ (fun t _ => flushed_eq V c t) (cover)

end Cert.KernelIdeal.Region0

end
-- ==== Proof.Region1.lean ====
/-
  The second launch's result array is ONE layer of the arrays it finds.

  The launch runs over 20 grid points. Point t holds rows 5000·t … 5000·t + 4999 of the aggregated messages and of the
  features, the whole weights and the whole bias row, and writes back rows 5000·t … 5000·t + 4999 of the result. An entry
  of a layer depends on its own row of the two row-blocked operands only, so what point t writes back is block t of the
  layer of the whole arrays; the 20 blocks tile the 100000 rows (row r lies in block r / 5000), so the result array ends
  holding the layer.
-/
import proofs.«124317_j52012053955020_1_alg».proof.Proof.Gen.KernelIdeal.Frame
import proofs.«124317_j52012053955020_1_alg».proof.Proof.Payload
import proofs.«124317_j52012053955020_1_alg».proof.Proof.Layer
import Idealize.ShloMosaic.Lib.Pipeline.Value

set_option maxRecDepth 16384

noncomputable section

namespace Cert.KernelIdeal.Region1

open Cert.KernelIdeal Cert.KernelIdeal.Gen Cert.KernelIdeal.BlockValue Cert.GraphConv
open Idealize.ShloMosaic Idealize.ShloMosaic.ValueIdx Idealize.ShloMosaic.TcCoe Idealize.SL.Sem
open Idealize.ShloMosaic.Pipeline (Dat)

/-- The body's rectangles start at the origin. -/
theorem origin : (![0, 0] : Fin 2 → Nat) = fun _ => 0 := funext fun a => by fin_cases a <;> rfl

/-- The index maps over the grid: the two row-blocked inputs and the output are at block (t, 0), the weights and the
    bias row at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- ONE POINT, over plain arrays: if the four loaded blocks are block `n` of `a` and of `x`, the whole `W` and the whole
    row `b`, then entry (p, q) of what the body stores is entry (5000·n + p, q) of the layer of `a`, `x`, `W`, `b`. -/
theorem point_eq (a x : FVec Ideal Nodes .f32) (W : FVec Ideal Weights .f32) (b : FVec Ideal BiasRow .f32)
    (x0 x1 : Vec Ideal S5000x64 .f32) (x2 : Vec Ideal S64x64 .f32) (x3 : Vec Ideal S1x64 .f32) (n : Nat) (hn : n < 20)
    (h0 : ∀ (p : Fin 5000) (k : Fin 64), x0 (ix2 p k) = a (ix2 (⟨n * 5000 + p.val, by omega⟩ : Fin 100000) k))
    (h1 : ∀ (p : Fin 5000) (k : Fin 64), x1 (ix2 p k) = x (ix2 (⟨n * 5000 + p.val, by omega⟩ : Fin 100000) k))
    (h2 : ∀ (k q : Fin 64), x2 (ix2 k q) = W (ix2 k q))
    (h3 : ∀ (q : Fin 64), x3 (ix2 (0 : Fin 1) q) = b (ix2 (0 : Fin 1) q))
    (p : Fin 5000) (q : Fin 64) :
    k1_pay1 (F := Ideal) x0 x1 x2 x3 (ix2 p q) = layer a x W b (ix2 (⟨n * 5000 + p.val, by omega⟩ : Fin 100000) q) := by
  rw [k1_pay1_apply, layer_apply]
  unfold entry
  simp only [h0, h1, h2, h3]

variable (V : (c : Dev nD) → (b : Ref sig .tc) → Buf (Elt Ideal) ((c : Thread nD τ).loc b)) (c : Dev nD)

/-- WHAT POINT `t` WRITES BACK is block `t` of the layer of the arrays the launch finds. -/
theorem flushed_eq (t : Fin cfg1.N) :
    (dat1 V c).flushed 4 t
      = ((cfg1.win 4).blk t).view.read (Elt Ideal) (layer (V c main_v25) (V c main_v15) (V c main_arg4) (V c main_v26)) := by
  show (cfg1.win 4).cut (grid1.coords t) ((dat1 V c).after 4 t) = _
  rw [after1_4]
  unfold out1_4
  rw [View.canon_unit_zero origin]
  simp only [View.ld_unit_zero (S := S5000x64) origin, View.ld_unit_zero (S := S64x64) origin,
    View.ld_unit_zero (S := S1x64) origin]
  obtain ⟨e00, e01, e10, e11, e20, e21, e30, e31, e40, e41⟩ := block_index t
  have ht : t.val < 20 := lt_of_lt_of_eq t.isLt (N_1 : cfg1.N = 20)
  refine funext fun (j : S5000x64.Idx) => ?_
  obtain ⟨p, q, rfl⟩ : ∃ (p : Fin 5000) (q : Fin 64), j = ix2 p q := ⟨j 0, j 1, eq_ix2 j⟩
  refine (point_eq (V c main_v25) (V c main_v15) (V c main_arg4) (V c main_v26)
    (iblk1 V c 0 t) (iblk1 V c 1 t) (iblk1 V c 2 t) (iblk1 V c 3 t) t.val ht ?_ ?_ ?_ ?_ p q).trans ?_
  · -- the messages' block: rows 5000·t + p
    intro p k
    show V c main_v25 (((cfg1.win 0).blk t).view.emb (ix2 p k)) = _
    refine congrArg (V c main_v25) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · -- the features' block: the same rows
    intro p k
    show V c main_v15 (((cfg1.win 1).blk t).view.emb (ix2 p k)) = _
    refine congrArg (V c main_v15) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 64 + 1 * k.val = k.val; rw [e11]; omega
  · -- the weights: the whole array
    intro k q
    show V c main_arg4 (((cfg1.win 2).blk t).view.emb (ix2 k q)) = _
    refine congrArg (V c main_arg4) (funext fun a => Fin.ext ?_)
    match a with
    | ⟨0, _⟩ => show win1_2.index t (0 : Fin 2) * 64 + 1 * k.val = k.val; rw [e20]; omega
    | ⟨1, _⟩ => show win1_2.index t (1 : Fin 2) * 64 + 1 * q.val = q.val; rw [e21]; omega
  · -- the bias row: the whole row
    intro q
    show V c main_v26 (((cfg1.win 3).blk t).view.emb (ix2 (0 : Fin 1) q)) = _
    refine congrArg (V c main_v26) (funext fun a => Fin.ext ?_)
    match a with
    | ⟨0, _⟩ => show win1_3.index t (0 : Fin 2) * 1 + 1 * (0 : Fin 1).val = (0 : Fin 1).val; rw [e30]; simp
    | ⟨1, _⟩ => show win1_3.index t (1 : Fin 2) * 64 + 1 * q.val = q.val; rw [e31]; omega
  · -- the output block sits at the same rows
    show _ = layer (V c main_v25) (V c main_v15) (V c main_arg4) (V c main_v26) (((cfg1.win 4).blk t).view.emb (ix2 p q))
    refine congrArg (layer (V c main_v25) (V c main_v15) (V c main_arg4) (V c main_v26)) (funext fun a => Fin.ext ?_)
    match a with
    | ⟨0, _⟩ => show t.val * 5000 + p.val = win1_4.index t (0 : Fin 2) * 5000 + 1 * p.val; rw [e40]; omega
    | ⟨1, _⟩ => show q.val = win1_4.index t (1 : Fin 2) * 64 + 1 * q.val; rw [e41]; omega

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v27).slice (win1_4.rect t)).set ↔ _
  rw [View.set_slice_whole, Rect.mem_set_unit]
  exact Iff.rfl

/-- Every entry of the result array is written back by some point: row r by point r / 5000. -/
theorem cover (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 20 := N_1
  refine ⟨⟨(i 0).val / 5000, by rw [hN]; omega⟩, flush1_4 _, ?_⟩
  rw [mem_blk]
  obtain ⟨-, -, -, -, -, -, -, -, e40, e41⟩ := block_index ⟨(i 0).val / 5000, by rw [hN]; omega⟩
  intro a
  match a with
  | ⟨0, _⟩ =>
    show win1_4.index ⟨(i 0).val / 5000, _⟩ (0 : Fin 2) * 5000 ≤ (i 0).val
      ∧ (i 0).val < win1_4.index ⟨(i 0).val / 5000, _⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, _⟩ (1 : Fin 2) * 64 ≤ (i 1).val
      ∧ (i 1).val < win1_4.index ⟨(i 0).val / 5000, _⟩ (1 : Fin 2) * 64 + 64
    rw [e41]; omega

/-- THE RESULT ARRAY after the launch is the layer of the arrays the launch finds. -/
theorem final :
    (dat1 V c).arrAt 4 cfg1.N = layer (V c main_v25) (V c main_v15) (V c main_arg4) (V c main_v26) :=
  (dat1 V c).arrAt_eq_of_cover 4 _ (fun t _ => flushed_eq V c t) (cover)

end Cert.KernelIdeal.Region1

end
-- ==== Proof.LibReshapeRow.lean ====
import Idealize.ShloMosaic.Lib.Pipeline.Value
import Idealize.ShloMosaic.Lib.ValueIdx
import Idealize.ShloMosaic.Lib.ValueLayout

/-!
# A vector as a one-row matrix: reshape and broadcast agree

Two ways of writing a vector `x` of `n` entries as a `1 × n` matrix: reshaping it (same entries in row-major order), and
broadcasting it along axis 1 (entry `(u, i)` reads `x i`). The only row is row `0`, whose row-major position of column
`i` is `0 * n + i = i`, so both arrays have `x i` at `(u, i)`.
-/

namespace Idealize.ShloMosaic

open Idealize.ShloMosaic.ValueIdx

/-- A vector of `n` entries reshaped to a `1 × n` row is the same array as the vector broadcast along axis 1 into a
    `1 × n` row: entry `(u, i)` of either is entry `i` of the vector. -/
theorem shapeCast_row_eq_broadcastInDim {α : Type} {n : Nat} (x : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x := by
  funext j
  obtain ⟨u, i, rfl⟩ : ∃ (u : Fin 1) (i : Fin n), j = ix2 u i := ⟨j 0, j 1, eq_ix2 j⟩
  -- the reshape at (u, i) is x at i
  rw [shapeCast_a_1a_apply x h₁ u i]
  -- the broadcast at (u, i) is x at i: the vector's only axis goes to axis 1
  refine (broadcastInDim_apply ![1] h₂ x (ix2 u i) (ix1 i) ?_).symm
  intro a
  match a with
  | ⟨0, _⟩ =>
    show i.val = if n = 1 then 0 else i.val
    split
    · have := i.isLt; omega
    · rfl

/-- The same at an element type of a float instance: a float vector of `n` entries reshaped to `1 × n` is its
    broadcast along axis 1. -/
theorem shapeCast_row_eq_broadcastInDim_fvec {F : FTy → Type} {φ : FTy} {n : Nat} (x : FVec F ⟨1, ![n]⟩ φ)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x :=
  shapeCast_row_eq_broadcastInDim x h₁ h₂

end Idealize.ShloMosaic
-- ==== Proof.HostValues.lean ====
/-
  What the two kernel launches find in their operands' arrays.

  Before the first launch the program aggregates the messages of the node features and reshapes the first bias to a row;
  between the launches it aggregates the messages of the first launch's output over the same edges and reshapes the second
  bias. Read back through the contents at the segment boundaries (launch, first region's entry and exit, second region's
  entry), each operand array of a launch is: the aggregated messages (the same function `aggregate` the reference applies),
  the features or the first launch's output, a weight argument, and a bias argument as a row (a vector reshaped to one row is
  the vector broadcast along the row's axis).
-/
import proofs.«124317_j52012053955020_1_alg».proof.Proof.Gen.KernelIdeal.Frame
import proofs.«124317_j52012053955020_1_alg».proof.Proof.RefLayers
import proofs.«124317_j52012053955020_1_alg».proof.Proof.LibReshapeRow

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo
open Cert.ReferenceIdeal.RefValue (aggregate biasRow)

variable (m : (ℓ : Loc nD τ sig) → Buf (Elt Ideal) ℓ) (ρ : Dev nD → PrngReg) (c : Dev nD)

/-! ## The first launch's operands -/

/-- Its first operand holds the aggregated messages of the features. -/
theorem entry0_messages :
    (V1 m ρ c main_v13 : FVec Ideal S100000x64 .f32)
      = aggregate (m ((c : Thread nD τ).loc main_arg0)) (m ((c : Thread nD τ).loc main_arg1)) := by
  show StableHlo.after (hostOps0 (F := Ideal)) (W0 m ρ c) (Proc.devRef .tc main_v13) = _
  after_results
  rfl

/-- Its second operand is the features argument. -/
theorem entry0_features : V1 m ρ c main_arg0 = m ((c : Thread nD τ).loc main_arg0) := by
  show StableHlo.after (hostOps0 (F := Ideal)) (W0 m ρ c) (Proc.devRef .tc main_arg0) = _
  after_results

/-- Its third operand is the first weight argument. -/
theorem entry0_weights : V1 m ρ c main_arg2 = m ((c : Thread nD τ).loc main_arg2) := by
  show StableHlo.after (hostOps0 (F := Ideal)) (W0 m ρ c) (Proc.devRef .tc main_arg2) = _
  after_results

/-- Its fourth operand is the first bias as a row. -/
theorem entry0_bias :
    (V1 m ρ c main_v14 : FVec Ideal S1x64 .f32) = biasRow (m ((c : Thread nD τ).loc main_arg3)) := by
  show StableHlo.after (hostOps0 (F := Ideal)) (W0 m ρ c) (Proc.devRef .tc main_v14) = _
  after_results
  unfold biasRow Cert.ReferenceIdeal.Read.val_main_v16
  exact shapeCast_row_eq_broadcastInDim_fvec (F := Ideal) (φ := .f32) (n := 64) _ _ _

/-- After the first launch its result buffer holds what the launch's write-backs leave. -/
theorem exit0_result : W2 m ρ c (Proc.devRef .tc main_v15) = (dat0 (V1 m ρ) c).arrAt 4 cfg0.N := W2_arr m ρ c 4

/-! ## The second launch's operands -/

/-- Its first operand holds the aggregated messages of the first launch's result, over the same edges: the source and
    destination vectors were cut out of the edge list before the first launch and no launch touches them. -/
theorem entry1_messages :
    (V3 m ρ c main_v25 : FVec Ideal S100000x64 .f32)
      = aggregate (W2 m ρ c (Proc.devRef .tc main_v15)) (m ((c : Thread nD τ).loc main_arg1)) := by
  show StableHlo.after (hostOps1 (F := Ideal)) (W2 m ρ c) (Proc.devRef .tc main_v25) = _
  after_results
  rw [W2_of_ne m ρ c main_v1 (by decide), W2_of_ne m ρ c main_v3 (by decide)]
  after_results
  generalize W2 m ρ c (Proc.devRef .tc main_v15) = h
  rfl

/-- Its second operand is the first launch's result. -/
theorem entry1_features : V3 m ρ c main_v15 = W2 m ρ c (Proc.devRef .tc main_v15) := by
  show StableHlo.after (hostOps1 (F := Ideal)) (W2 m ρ c) (Proc.devRef .tc main_v15) = _
  after_results

/-- Its third operand is the second weight argument. -/
theorem entry1_weights : V3 m ρ c main_arg4 = m ((c : Thread nD τ).loc main_arg4) := by
  show StableHlo.after (hostOps1 (F := Ideal)) (W2 m ρ c) (Proc.devRef .tc main_arg4) = _
  after_results
  rw [W2_of_ne m ρ c main_arg4 (by decide)]
  after_results

/-- Its fourth operand is the second bias as a row. -/
theorem entry1_bias :
    (V3 m ρ c main_v26 : FVec Ideal S1x64 .f32) = biasRow (m ((c : Thread nD τ).loc main_arg5)) := by
  show StableHlo.after (hostOps1 (F := Ideal)) (W2 m ρ c) (Proc.devRef .tc main_v26) = _
  after_results
  rw [W2_of_ne m ρ c main_arg5 (by decide)]
  after_results
  unfold biasRow Cert.ReferenceIdeal.Read.val_main_v16
  exact shapeCast_row_eq_broadcastInDim_fvec (F := Ideal) (φ := .f32) (n := 64) _ _ _

/-- After the second launch the program's result buffer holds what that launch's write-backs leave. -/
theorem exit1_result : W4 m ρ c (Proc.devRef .tc main_v27) = (dat1 (V3 m ρ) c).arrAt 4 cfg1.N := W4_arr m ρ c 4

end Cert.KernelIdeal.HostValue

end
-- ==== Proof.KernelValue.lean ====
/-
  The kernel program's result array is the two-layer network of its arguments.

  The second launch's result is a layer of what it finds: the aggregated messages of the first launch's result, that result,
  the second weights and the second bias row. The first launch's result is a layer of what IT finds: the aggregated
  messages of the features, the features, the first weights and the first bias row. Substituting one into the other gives
  the network the reference computes.
-/
import proofs.«124317_j52012053955020_1_alg».proof.Proof.Region0
import proofs.«124317_j52012053955020_1_alg».proof.Proof.Region1
import proofs.«124317_j52012053955020_1_alg».proof.Proof.HostValues
import proofs.«124317_j52012053955020_1_alg».proof.Proof.KernelRun

set_option maxRecDepth 16384

noncomputable section

namespace Cert.KernelIdeal.KernelValue

open Cert.KernelIdeal Cert.KernelIdeal.Gen Cert.KernelIdeal.HostValue Idealize.ShloMosaic Idealize.ShloMosaic.TcCoe
open Idealize.SL.Sem
open Cert.ReferenceIdeal.RefValue (twoLayers)

variable (m : (ℓ : Loc nD τ sig) → Buf (Elt Ideal) ℓ) (ρ : Dev nD → PrngReg)

/-- What the program's result buffer holds after the second launch, as a function of the arguments. -/
theorem result_eq (c : Dev nD) :
    (W4 m ρ c (Proc.devRef .tc main_v27) : FVec Ideal S100000x64 .f32)
      = twoLayers (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [exit1_result, Region1.final (V3 m ρ) c, entry1_messages, entry1_features, entry1_weights, entry1_bias,
    exit0_result, Region0.final (V1 m ρ) c, entry0_messages, entry0_features, entry0_weights, entry0_bias]
  rfl

/-- The kernel program's run: every weakly fair execution terminates, nothing faulting, with the result array at the
    two-layer network of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v27)
        = twoLayers (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.GenP.run_result (F := Ideal) m ρ)

end Cert.KernelIdeal.KernelValue

end
-- ==== Proof.lean ====
/-
  A two-layer message-passing network on 100000 nodes with 64 features and 1000000 edges: the kernel program against its
  jnp reference, on the extended reals.

  Both programs aggregate messages with the same host operations (a gather of the source nodes' rows and a sum into the
  destination nodes' rows), so the aggregation is carried as ONE function of the features and the edge list and is never
  opened: nothing is asked of the edge list. What differs is the dense part. The reference adds the features to the
  messages, multiplies the whole 100000 × 64 array by the 64 × 64 weights, adds the bias and rectifies. The kernel program
  does the same on 20 row blocks of 5000 nodes, narrowing both operands of the product to bf16 first and accumulating from
  zero; on the extended reals the narrowing is the identity and the product is the plain sum over the 64 shared
  coordinates, and an entry of the result depends on its own row only, so the 20 blocks written back are the blocks of the
  reference's array. The laws used are the sum's and the product's own; no entry needs to be finite, and the precondition
  is not opened.

  The modules: `Layer` (one layer as a function of whole arrays), `RefLayers` (the reference is two layers), `Payload` (one
  grid point's arithmetic at an entry), `Region0` / `Region1` (a launch's result array is the layer of what it finds),
  `HostValues` (what each launch finds), `KernelRun` (the kernel program's run with its result buffer named),
  `KernelValue` (the kernel program's result is the two-layer network). No rewrite was made by the idealization, so
  `preserves` is `True`.
-/
import proofs.«124317_j52012053955020_1_alg».proof.Defs
import proofs.«124317_j52012053955020_1_alg».proof.Proof.Gen.Kernel
import proofs.«124317_j52012053955020_1_alg».proof.Proof.Gen.Kernel.Skeleton
import proofs.«124317_j52012053955020_1_alg».proof.Proof.Gen.Kernel.Launch
import proofs.«124317_j52012053955020_1_alg».proof.Proof.Gen.Kernel.Points
import proofs.«124317_j52012053955020_1_alg».proof.Proof.Gen.Kernel.Frame
import proofs.«124317_j52012053955020_1_alg».proof.Proof.Gen.KernelIdeal
import proofs.«124317_j52012053955020_1_alg».proof.Proof.Gen.KernelIdeal.Skeleton
import proofs.«124317_j52012053955020_1_alg».proof.Proof.Gen.KernelIdeal.Launch
import proofs.«124317_j52012053955020_1_alg».proof.Proof.Gen.KernelIdeal.Points
import proofs.«124317_j52012053955020_1_alg».proof.Proof.Gen.KernelIdeal.Frame
import proofs.«124317_j52012053955020_1_alg».proof.Proof.Gen.ReferenceIdeal
import proofs.«124317_j52012053955020_1_alg».proof.Proof.Gen.ReferenceIdeal.Run
import proofs.«124317_j52012053955020_1_alg».proof.Proof.Gen.ReferenceIdeal.Read
import proofs.«124317_j52012053955020_1_alg».proof.Proof.Gen.Pre_finite_inputs
import proofs.«124317_j52012053955020_1_alg».proof.Proof.RefLayers
import proofs.«124317_j52012053955020_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the two-layer network of those arguments in their
    result arrays: the kernel program by its two launches, the reference by its two whole-array stages. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
